-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S500000 : Shape := ⟨1, ![500000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S500000 32) (main_arg2 : IVec S500000 32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S500000 : Shape := ⟨1, ![500000]⟩
abbrev S128x128 : Shape := ⟨2, ![128, 128]⟩
abbrev S128 : Shape := ⟨1, ![128]⟩
abbrev S_ : Shape := ⟨0, ![]⟩
abbrev S500000x1 : Shape := ⟨2, ![500000, 1]⟩
abbrev S500000x128 : Shape := ⟨2, ![500000, 128]⟩
abbrev S1x128 : Shape := ⟨2, ![1, 128]⟩
abbrev S10000x128 : Shape := ⟨2, ![10000, 128]⟩

abbrev nBuf : Space → Nat
  | .hbm => 21
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S500000, .i32⟩
  | .hbm, ⟨2, _⟩ => ⟨S500000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S500000, .i32⟩
  | .hbm, ⟨7, _⟩ => ⟨S500000, .i1⟩
  | .hbm, ⟨8, _⟩ => ⟨S_, .i32⟩
  | .hbm, ⟨9, _⟩ => ⟨S500000, .i32⟩
  | .hbm, ⟨10, _⟩ => ⟨S500000, .i32⟩
  | .hbm, ⟨11, _⟩ => ⟨S500000, .i32⟩
  | .hbm, ⟨12, _⟩ => ⟨S500000x1, .i32⟩
  | .hbm, ⟨13, _⟩ => ⟨S500000x128, .f32⟩
  | .hbm, ⟨14, _⟩ => ⟨S_, .f32⟩
  | .hbm, ⟨15, _⟩ => ⟨S100000x128, .f32⟩
  | .hbm, ⟨16, _⟩ => ⟨S500000x1, .i32⟩
  | .hbm, ⟨17, _⟩ => ⟨S100000x128, .f32⟩
  | .hbm, ⟨18, _⟩ => ⟨S128x128, .f32⟩
  | .hbm, ⟨19, _⟩ => ⟨S1x128, .f32⟩
  | .hbm, ⟨20, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v9) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S500000 : Shape := ⟨1, ![500000]⟩
abbrev S128x128 : Shape := ⟨2, ![128, 128]⟩
abbrev S128 : Shape := ⟨1, ![128]⟩
abbrev S_ : Shape := ⟨0, ![]⟩
abbrev S500000x1 : Shape := ⟨2, ![500000, 1]⟩
abbrev S500000x128 : Shape := ⟨2, ![500000, 128]⟩
abbrev S1x128 : Shape := ⟨2, ![1, 128]⟩

abbrev nBuf : Space → Nat
  | .hbm => 23
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S500000, .i32⟩
  | .hbm, ⟨2, _⟩ => ⟨S500000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S500000, .i32⟩
  | .hbm, ⟨7, _⟩ => ⟨S500000, .i1⟩
  | .hbm, ⟨8, _⟩ => ⟨S_, .i32⟩
  | .hbm, ⟨9, _⟩ => ⟨S500000, .i32⟩
  | .hbm, ⟨10, _⟩ => ⟨S500000, .i32⟩
  | .hbm, ⟨11, _⟩ => ⟨S500000, .i32⟩
  | .hbm, ⟨12, _⟩ => ⟨S500000x1, .i32⟩
  | .hbm, ⟨13, _⟩ => ⟨S500000x128, .f32⟩
  | .hbm, ⟨14, _⟩ => ⟨S_, .f32⟩
  | .hbm, ⟨15, _⟩ => ⟨S100000x128, .f32⟩
  | .hbm, ⟨16, _⟩ => ⟨S500000x1, .i32⟩
  | .hbm, ⟨17, _⟩ => ⟨S100000x128, .f32⟩
  | .hbm, ⟨18, _⟩ => ⟨S128x128, .f32⟩
  | .hbm, ⟨19, _⟩ => ⟨S100000x128, .f32⟩
  | .hbm, ⟨20, _⟩ => ⟨S1x128, .f32⟩
  | .hbm, ⟨21, _⟩ => ⟨S100000x128, .f32⟩
  | .hbm, ⟨22, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  dot_S100000x128_S128x128_S100000x128_1_0_0_1_n_n_wf : DotDims.WF S100000x128 S128x128 S100000x128 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.NodeUpdateSpec.lean ====
/-
  The node update of one message-passing layer, as one function of its three operands.

  For a graph with 100000 nodes and 128 features per node, let `agg` be the table of aggregated
  neighbour features (row `r` is the sum of the feature rows of the sources of the edges that end at
  node `r`), `w` the 128 × 128 weight matrix of the linear layer, stored one OUTPUT feature per row, and
  `b` the bias. The layer's result at node `r` and output feature `c` is

      out r c = (∑ k, agg r k · w c k) + b c,

  the inner product of row `r` of `agg` with row `c` of `w` (that is, `agg · wᵀ`), plus the bias. Every entry
  is an extended real; the sum is the extended reals' own, over the 128 input features in their natural order.
  Nothing here needs an entry to be finite: no term is moved across the sum and nothing is cancelled.
-/
import Idealize.ShloMosaic.PureOps.Ideal
import Idealize.ShloMosaic.Lib.ValueIdx

noncomputable section

open scoped BigOperators

namespace Cert.NodeUpdate

open Idealize.ShloMosaic Idealize.ShloMosaic.ValueIdx

/-- `agg · wᵀ + b`, entry by entry: at row `i 0` and column `i 1`, the inner product of row `i 0` of `agg` with
    row `i 1` of `w`, plus entry `i 1` of `b`. -/
def affine (agg : (⟨2, ![100000, 128]⟩ : Shape).Idx → EReal) (w : (⟨2, ![128, 128]⟩ : Shape).Idx → EReal)
    (b : (⟨1, ![128]⟩ : Shape).Idx → EReal) : (⟨2, ![100000, 128]⟩ : Shape).Idx → EReal :=
  fun i => (∑ k : Fin 128, agg (ix2 (⟨(i 0).val, idx2_lt0 i⟩ : Fin 100000) k) * w (ix2 (⟨(i 1).val, idx2_lt1 i⟩ : Fin 128) k))
    + b (ix1 (⟨(i 1).val, idx2_lt1 i⟩ : Fin 128))

/-- The same entry, named by its row `r` and column `c`. -/
theorem affine_ix2 (agg : (⟨2, ![100000, 128]⟩ : Shape).Idx → EReal) (w : (⟨2, ![128, 128]⟩ : Shape).Idx → EReal)
    (b : (⟨1, ![128]⟩ : Shape).Idx → EReal) (r : Fin 100000) (c : Fin 128) :
    affine agg w b (ix2 r c) = (∑ k : Fin 128, agg (ix2 r k) * w (ix2 c k)) + b (ix1 c) := rfl

end Cert.NodeUpdate

end
-- ==== Proof.RefIsSpec.lean ====
/-
  The reference computes the node update. Its last four steps are: the weight matrix transposed; the matrix
  product of the aggregated features with that transpose, contracting the 128 input features; the bias laid
  out as one row and repeated down the 100000 rows; the sum of the two. Read at an entry (r, c) the product is
  ∑ k, agg r k · wᵀ k c = ∑ k, agg r k · w c k, and the repeated bias is b c: the entry of `affine`.
  The aggregated features themselves (a gather of feature rows by edge source followed by a scatter-add by edge
  destination) are carried as one unopened term.
-/
import proofs.«150042_j6648609374330_2_alg».proof.Proof.Gen.ReferenceIdeal.Read
import proofs.«150042_j6648609374330_2_alg».proof.Proof.NodeUpdateSpec

noncomputable section

open scoped BigOperators

namespace Cert.NodeUpdate.Ref

open Idealize.ShloMosaic Idealize.ShloMosaic.ValueIdx
open Cert.ReferenceIdeal Cert.ReferenceIdeal.Read

/-- The reference's result is `affine` of its aggregated features, the weight matrix and the bias. -/
theorem result_is_affine (x0 : (⟨S100000x128, .f32⟩ : BufTy).Contents (Elt Ideal))
    (x1 x2 : (⟨S500000, .i32⟩ : BufTy).Contents (Elt Ideal))
    (x3 : (⟨S128x128, .f32⟩ : BufTy).Contents (Elt Ideal)) (x4 : (⟨S128, .f32⟩ : BufTy).Contents (Elt Ideal)) :
    val_main_v14 (F := Ideal) x0 x1 x2 x3 x4 = affine (val_main_v9 (F := Ideal) x0 x1 x2) x3 x4 := by
  funext i
  -- the left factor of the product is read at (row of i, k)
  have el : ∀ k : Fin 128, lidx_main_v11 i k = ix2 (⟨(i 0).val, idx2_lt0 i⟩ : Fin 100000) k := fun k =>
    funext fun a => by match a with | ⟨0, _⟩ => rfl | ⟨1, _⟩ => rfl
  -- the right factor, through the transpose, at (column of i, k)
  have er : ∀ k : Fin 128, idx_main_v10 (ridx_main_v11 i k) = ix2 (⟨(i 1).val, idx2_lt1 i⟩ : Fin 128) k := fun k =>
    funext fun a => by match a with | ⟨0, _⟩ => rfl | ⟨1, _⟩ => rfl
  -- the bias, through its two broadcasts, at the column of i
  have eb : idx_main_v12 (idx_main_v13 i) = ix1 (⟨(i 1).val, idx2_lt1 i⟩ : Fin 128) :=
    funext fun a => by match a with | ⟨0, _⟩ => rfl
  rw [val_main_v14_apply, val_main_v11_apply, val_main_v13_apply, val_main_v12_apply]
  simp only [val_main_v10_apply, el, er, eb]
  rfl

end Cert.NodeUpdate.Ref

end
-- ==== Proof.BodyAtEntry.lean ====
/-
  What the kernel body computes at one grid point, entry by entry. The body holds a block of 10000 rows of the
  aggregated features (x0), the whole 128 × 128 matrix wᵀ (x1: input feature k per row, output feature per
  column) and the bias as one row (x2). It narrows x0 and x1 to bfloat16 — no change of value on the extended
  reals —, multiplies them into a zero accumulator, and adds the bias row to every row of the product. So entry
  (p, q) of the block it stores is

      (∑ k, x0 p k · x1 k q) + x2 0 q.
-/
import proofs.«150042_j6648609374330_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.NodeUpdate.Body

open Idealize.ShloMosaic Idealize.ShloMosaic.ValueIdx
open Cert.KernelIdeal Cert.KernelIdeal.Gen

/-- The product's left factor at output entry `j` and contraction index `q` sits in row `j 0` … -/
theorem lhs_row (j : S10000x128.Idx) (q : dot_S10000x128_S128x128_S10000x128_1_0_0_1_n_n.contr.Idx) :
    (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
/-- … and column `q`; -/
theorem lhs_col (j : S10000x128.Idx) (q : dot_S10000x128_S128x128_S10000x128_1_0_0_1_n_n.contr.Idx) :
    (dot_S10000x128_S128x128_S10000x128_1_0_0_1_n_n.lhsIdx j q 1).val = (q ⟨0, by decide⟩).val :=
  dot_S10000x128_S128x128_S10000x128_1_0_0_1_n_n.lhsIdx_val_of_single rfl j q
/-- the right factor sits in row `q` … -/
theorem rhs_row (j : S10000x128.Idx) (q : dot_S10000x128_S128x128_S10000x128_1_0_0_1_n_n.contr.Idx) :
    (dot_S10000x128_S128x128_S10000x128_1_0_0_1_n_n.rhsIdx j q 0).val = (q ⟨0, by decide⟩).val :=
  dot_S10000x128_S128x128_S10000x128_1_0_0_1_n_n.rhsIdx_val_of_single rfl j q
/-- … and column `j 1`. -/
theorem rhs_col (j : S10000x128.Idx) (q : dot_S10000x128_S128x128_S10000x128_1_0_0_1_n_n.contr.Idx) :
    (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- A product of a 10000 × 128 block with a 128 × 128 matrix into a zero accumulator, at entry (p, q): the sum over
    the 128 contracted features of the block's row `p` times the matrix's column `q`. -/
theorem product_at (l : FVec Ideal S10000x128 .bf16) (r : FVec Ideal S128x128 .bf16) (p : Fin 10000) (q : Fin 128) :
    matmul (F := Ideal) dot_S10000x128_S128x128_S10000x128_1_0_0_1_n_n none l r (constant (F := Ideal) S10000x128 .f32 0x00000000#32) (ix2 p q)
      = ∑ k : Fin 128, l (ix2 p k) * r (ix2 k q) := by
  simp only [matmul]
  rw [Ideal.matmul_constant_zero_apply,
    ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q)
      ((contrEquiv1 dot_S10000x128_S128x128_S10000x128_1_0_0_1_n_n 128 rfl rfl).symm k) = ix2 p k :=
    funext fun a => Fin.ext (by
      match a with
      | ⟨0, _⟩ => exact lhs_row _ _
      | ⟨1, _⟩ => exact (lhs_col _ _).trans hk)
  have er : dot_S10000x128_S128x128_S10000x128_1_0_0_1_n_n.rhsIdx (ix2 p q)
      ((contrEquiv1 dot_S10000x128_S128x128_S10000x128_1_0_0_1_n_n 128 rfl rfl).symm k) = ix2 k q :=
    funext fun a => Fin.ext (by
      match a with
      | ⟨0, _⟩ => exact (rhs_row _ _).trans hk
      | ⟨1, _⟩ => exact rhs_col _ _)
  rw [el, er]

/-- THE BODY AT AN ENTRY: the stored block at (p, q) is row `p` of the feature block times column `q` of the matrix,
    plus the bias at `q`. -/
theorem stored_at (x0 : Vec Ideal S10000x128 .f32) (x1 : Vec Ideal S128x128 .f32) (x2 : Vec Ideal S1x128 .f32)
    (p : Fin 10000) (q : Fin 128) :
    k0_pay1 (F := Ideal) x0 x1 x2 (ix2 p q) = (∑ k : Fin 128, x0 (ix2 p k) * x1 (ix2 k q)) + x2 (ix2 (0 : Fin 1) q) := by
  unfold k0_pay1
  rw [shapeCast_self, shapeCast_self, shapeCast_self, addf_apply, broadcastTo_1b_ab_apply, product_at]
  rfl

end Cert.NodeUpdate.Body

end
-- ==== Proof.RegionEntry.lean ====
/-
  What the kernel's three operand arrays hold when it is launched. Before the launch the program computes, from its
  arguments: the aggregated features — every edge's source index, wrapped once if negative, picks a feature row; the
  picked rows are added into a zero table at the edges' destination rows —; the weight matrix transposed; and the bias
  laid out as one row. Each array is stated as that term of the arguments, and then the two layout changes are read at an
  entry: the transposed matrix at (k, q) is the weight matrix at (q, k); the bias row at (0, q) is the bias at q.
  The aggregated features are kept as one unopened term of the features and the two index lists.
-/
import proofs.«150042_j6648609374330_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

noncomputable section

namespace Cert.NodeUpdate.Entry

open Idealize.ShloMosaic Idealize.ShloMosaic.TcCoe Idealize.SL.Sem Idealize.ShloMosaic.StableHlo
open Idealize.ShloMosaic.ValueIdx
open Cert.KernelIdeal Cert.KernelIdeal.Gen

variable (m : (ℓ : Loc nD τ sig) → Buf (Elt Ideal) ℓ)

/-- The aggregated features as the kernel's program computes them from the node features `x0`, the edge sources `x1`
    and the edge destinations `x2`: a source below zero is shifted up by the number of nodes; row `e` of the gathered
    table is the feature row of edge `e`'s source; the gathered rows are summed into a zero table at the destinations. -/
def aggregated (x0 : (⟨S100000x128, .f32⟩ : BufTy).Contents (Elt Ideal)) (x1 x2 : (⟨S500000, .i32⟩ : BufTy).Contents (Elt Ideal)) :
    (⟨S100000x128, .f32⟩ : BufTy).Contents (Elt Ideal) :=
  Host.scatterAdd scatter_S100000x128_S500000x1_S500000x128_1_0_0_1
    (broadcastInDim S100000x128 ![] bcast_S_S100000x128 (constant (F := Ideal) S_ .f32 0x00000000#32))
    (broadcastInDim S500000x1 ![0] bcast_S500000_S500000x1_0 x2)
    (Host.gather gather_S100000x128_S500000x1_S500000x128_1_0_n_n_0_1_1128 x0
      (broadcastInDim S500000x1 ![0] bcast_S500000_S500000x1_0
        (select (cmpi .slt x1 (broadcastInDim S500000 ![] bcast_S_S500000 (constantI S_ 32 0#32)))
          (addi x1 (broadcastInDim S500000 ![] bcast_S_S500000 (constantI S_ 32 100000#32))) x1)))

/-- At the launch the first operand array holds the aggregated features of the arguments. -/
theorem entry_agg (c : Dev nD) :
    (V m c main_v9 : S100000x128.Idx → EReal)
      = aggregated (m ((c : Thread nD τ).loc main_arg0)) (m ((c : Thread nD τ).loc main_arg1)) (m ((c : Thread nD τ).loc main_arg2)) := by
  dsimp only [V, hostOps0]; after_results <;> rfl

/-- At the launch the second operand array holds the weight matrix transposed. -/
theorem entry_wT (c : Dev nD) :
    (V m c main_v10 : S128x128.Idx → EReal)
      = transpose S128x128 [1, 0] (m ((c : Thread nD τ).loc main_arg3)) transposes_S128x128_S128x128_1_0 := by
  dsimp only [V, hostOps0]; after_results <;> rfl

/-- At the launch the third operand array holds the bias as one row. -/
theorem entry_bias (c : Dev nD) :
    (V m c main_v11 : S1x128.Idx → EReal)
      = shapeCast S1x128 (m ((c : Thread nD τ).loc main_arg4)) shapeCasts_S128_S1x128 := by
  dsimp only [V, hostOps0]; after_results <;> rfl

/-- The transposed weight matrix at (k, q) is the weight matrix at (q, k). -/
theorem wT_at (c : Dev nD) (k q : Fin 128) :
    (V m c main_v10 : S128x128.Idx → EReal) (ix2 k q) = (m ((c : Thread nD τ).loc main_arg3) : S128x128.Idx → EReal) (ix2 q k) := by
  rw [entry_wT]
  exact transpose_ix2_apply _ _ k q

/-- The bias row at (0, q) is the bias at q. -/
theorem bias_at (c : Dev nD) (q : Fin 128) :
    (V m c main_v11 : S1x128.Idx → EReal) (ix2 (0 : Fin 1) q) = (m ((c : Thread nD τ).loc main_arg4) : S128.Idx → EReal) (ix1 q) := by
  rw [entry_bias]
  exact shapeCast_a_1a_apply _ _ (0 : Fin 1) q

end Cert.NodeUpdate.Entry

end
-- ==== Proof.BlocksToArray.lean ====
/-
  From the ten blocks to the whole result. The kernel runs at ten grid points; at point t it reads rows
  10000·t … 10000·t + 9999 of the aggregated features, the whole transposed weight matrix and the whole bias row, and
  writes back rows 10000·t … 10000·t + 9999 of the result. By the body's entry formula, row p and column q of the
  block written at point t is

      (∑ k, agg (10000·t + p) k · wᵀ k q) + biasrow 0 q  =  (∑ k, agg (10000·t + p) k · w q k) + b q,

  which is entry (10000·t + p, q) of `affine agg w b`: each written block is the matching block of ONE function of
  the whole arrays. Row r of the result lies in the block of point r / 10000, so the ten blocks cover the array, and
  after the run the result array is `affine agg w b`.
-/
import proofs.«150042_j6648609374330_2_alg».proof.Proof.Gen.KernelIdeal.Value
import proofs.«150042_j6648609374330_2_alg».proof.Proof.NodeUpdateSpec
import proofs.«150042_j6648609374330_2_alg».proof.Proof.BodyAtEntry
import proofs.«150042_j6648609374330_2_alg».proof.Proof.RegionEntry

noncomputable section

open scoped BigOperators

namespace Cert.NodeUpdate.Blocks

open Idealize.ShloMosaic Idealize.ShloMosaic.TcCoe Idealize.SL.Sem
open Idealize.ShloMosaic.Pipeline (Dat)
open Idealize.ShloMosaic.ValueIdx
open Cert.KernelIdeal Cert.KernelIdeal.Gen

variable (m : (ℓ : Loc nD τ sig) → Buf (Elt Ideal) ℓ) (ρ : Dev nD → PrngReg)

theorem zero_offsets : (![0, 0] : Fin 2 → Nat) = fun _ => 0 := funext fun a => by fin_cases a <;> rfl

/-- The whole result: `affine` of the aggregated features of the arguments, the weight matrix and the bias. -/
abbrev whole (c : Dev nD) : S100000x128.Idx → EReal :=
  affine (Entry.aggregated (m ((c : Thread nD τ).loc main_arg0)) (m ((c : Thread nD τ).loc main_arg1)) (m ((c : Thread nD τ).loc main_arg2)))
    (m ((c : Thread nD τ).loc main_arg3)) (m ((c : Thread nD τ).loc main_arg4))

/-- Which block each window is on at point `t`: the features and the result move down one block of rows per point; the
    matrix and the bias row stay on their one block. -/
theorem block_of_point : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the feature block at point `t` is row `10000·t + p` of the aggregated features. -/
theorem feature_block_at (c : Dev nD) (t : Fin cfg0.N) (p : Fin 10000) (k : Fin 128) (r : Fin 100000)
    (hr : r.val = t.val * 10000 + p.val) :
    (iblk m c 0 t : Vec Ideal S10000x128 .f32) (ix2 p k) = (V m c main_v9 : S100000x128.Idx → EReal) (ix2 r k) := by
  obtain ⟨e0, e1, -⟩ := block_of_point t
  unfold iblk
  rw [View.read_apply]
  show V m c main_v9 (((cfg0.win 0).blk t).view.emb (ix2 p k)) = V m c main_v9 (ix2 r k)
  refine congrArg (V m c main_v9) (funext fun a => Fin.ext ?_)
  match a with
  | ⟨0, _⟩ => show win0_0.index t (0 : Fin 2) * 10000 + 1 * p.val = r.val; omega
  | ⟨1, _⟩ => show win0_0.index t (1 : Fin 2) * 128 + 1 * k.val = k.val; omega

/-- The matrix block at every point is the whole transposed matrix. -/
theorem matrix_block_at (c : Dev nD) (t : Fin cfg0.N) (k q : Fin 128) :
    (iblk m c 1 t : Vec Ideal S128x128 .f32) (ix2 k q) = (V m c main_v10 : S128x128.Idx → EReal) (ix2 k q) := by
  obtain ⟨-, -, e2, e3, -⟩ := block_of_point t
  unfold iblk
  rw [View.read_apply]
  show V m c main_v10 (((cfg0.win 1).blk t).view.emb (ix2 k q)) = V m c main_v10 (ix2 k q)
  refine congrArg (V m c main_v10) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- The bias block at every point is the whole bias row. -/
theorem bias_block_at (c : Dev nD) (t : Fin cfg0.N) (q : Fin 128) :
    (iblk m c 2 t : Vec Ideal S1x128 .f32) (ix2 (0 : Fin 1) q) = (V m c main_v11 : S1x128.Idx → EReal) (ix2 (0 : Fin 1) q) := by
  obtain ⟨-, -, -, -, e4, e5, -⟩ := block_of_point t
  unfold iblk
  rw [View.read_apply]
  show V m c main_v11 (((cfg0.win 2).blk t).view.emb (ix2 (0 : Fin 1) q)) = V m c main_v11 (ix2 (0 : Fin 1) q)
  refine congrArg (V m c main_v11) (funext fun a => Fin.ext ?_)
  match a with
  | ⟨0, _⟩ => show win0_2.index t (0 : Fin 2) * 1 + 1 * (0 : Fin 1).val = (0 : Fin 1).val; omega
  | ⟨1, _⟩ => show win0_2.index t (1 : Fin 2) * 128 + 1 * q.val = q.val; omega

/-- Entry (p, q) of the result block of point `t` is entry (10000·t + p, q) of the result array. -/
theorem result_block_emb (t : Fin cfg0.N) (p : Fin 10000) (q : Fin 128) (r : Fin 100000)
    (hr : r.val = t.val * 10000 + p.val) :
    ((cfg0.win 3).blk t).view.emb (ix2 p q) = (ix2 r q : S100000x128.Idx) := by
  obtain ⟨-, -, -, -, -, -, e6, e7⟩ := block_of_point t
  funext a
  apply Fin.ext
  match a with
  | ⟨0, _⟩ => show win0_3.index t (0 : Fin 2) * 10000 + 1 * p.val = r.val; omega
  | ⟨1, _⟩ => show win0_3.index t (1 : Fin 2) * 128 + 1 * q.val = q.val; omega

/-- The arithmetic of one entry, over any three blocks: if row `p` of the feature block is row `r` of `agg`, the matrix
    block at (k, q) is `w` at (q, k) and the bias block at (0, q) is `b` at `q`, then the body's entry formula at (p, q) is
    entry (r, q) of `affine agg w b`. -/
theorem entry_of_blocks (agg : S100000x128.Idx → EReal) (w : S128x128.Idx → EReal) (b : S128.Idx → EReal)
    (x0 : Vec Ideal S10000x128 .f32) (x1 : Vec Ideal S128x128 .f32) (x2 : Vec Ideal S1x128 .f32)
    (p : Fin 10000) (q : Fin 128) (r : Fin 100000)
    (h0 : ∀ k : Fin 128, x0 (ix2 p k) = agg (ix2 r k)) (h1 : ∀ k : Fin 128, x1 (ix2 k q) = w (ix2 q k))
    (h2 : x2 (ix2 (0 : Fin 1) q) = b (ix1 q)) :
    (∑ k : Fin 128, x0 (ix2 p k) * x1 (ix2 k q)) + x2 (ix2 (0 : Fin 1) q) = affine agg w b (ix2 r q) := by
  rw [affine_ix2, h2]
  exact congrArg (fun s : EReal => s + b (ix1 q)) (Finset.sum_congr rfl fun k _ => by rw [h0 k, h1 k])

/-- Row `p`, column `q` of what the body computes from point `t`'s blocks is entry (10000·t + p, q) of `whole`: the feature
    block's row `p` is row `r = 10000·t + p` of the aggregated features, the matrix block at (k, q) is the weight matrix at
    (q, k), the bias block at (0, q) is the bias at `q`. -/
theorem block_entry (c : Dev nD) (t : Fin cfg0.N) (p : Fin 10000) (q : Fin 128) (r : Fin 100000)
    (hr : r.val = t.val * 10000 + p.val) :
    k0_pay1 (F := Ideal) (iblk m c 0 t) (iblk m c 1 t) (iblk m c 2 t) (ix2 p q) = whole m c (ix2 r q) :=
  (Body.stored_at (iblk m c 0 t) (iblk m c 1 t) (iblk m c 2 t) p q).trans
    (entry_of_blocks
      (Entry.aggregated (m ((c : Thread nD τ).loc main_arg0)) (m ((c : Thread nD τ).loc main_arg1)) (m ((c : Thread nD τ).loc main_arg2)))
      (m ((c : Thread nD τ).loc main_arg3)) (m ((c : Thread nD τ).loc main_arg4))
      (iblk m c 0 t) (iblk m c 1 t) (iblk m c 2 t) p q r
      (fun k => (feature_block_at m c t p k r hr).trans (congrFun (Entry.entry_agg m c) (ix2 r k)))
      (fun k => (matrix_block_at m c t k q).trans (Entry.wT_at m c k q))
      ((bias_block_at m c t q).trans (Entry.bias_at m c q)))

/-- WHAT POINT `t` WRITES BACK is block `t` of `whole`. -/
theorem flushed_eq (c : Dev nD) (t : Fin cfg0.N) :
    (dats m 0 c).flushed 3 t = ((cfg0.win 3).blk t).view.read (Elt Ideal) (whole m c) := by
  rw [Cert.KernelIdeal.Value.flushed3]
  unfold out0_3
  rw [View.canon_unit_zero zero_offsets]
  simp only [View.ld_unit_zero (S := S10000x128) zero_offsets, View.ld_unit_zero (S := S128x128) zero_offsets,
    View.ld_unit_zero (S := S1x128) zero_offsets]
  funext j
  obtain ⟨p, q, rfl⟩ : ∃ (p : Fin 10000) (q : Fin 128), j = ix2 p q := ⟨j 0, j 1, eq_ix2 j⟩
  have ht : t.val < 10 := Nat.lt_of_lt_of_eq t.isLt (show cfg0.N = 10 from N_0)
  have hr : (⟨t.val * 10000 + p.val, by have := p.isLt; omega⟩ : Fin 100000).val = t.val * 10000 + p.val := rfl
  show k0_pay1 (F := Ideal) (iblk m c 0 t) (iblk m c 1 t) (iblk m c 2 t) (ix2 p q)
    = whole m c (((cfg0.win 3).blk t).view.emb (ix2 p q))
  rw [result_block_emb t p q _ hr]
  exact block_entry m c t p q _ hr

/-- An index of the result array is in point `t`'s block iff each coordinate is in the block's range on its axis. -/
theorem mem_block (t : Fin cfg0.N) (i : S100000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v12).slice (win0_3.rect t)).set ↔ _
  rw [View.set_slice_whole, Rect.mem_set_unit]
  exact Iff.rfl

/-- Every entry of the result array is written: row `r` by the point `r / 10000`. -/
theorem covered (i : S100000x128.Idx) :
    ∃ t : Fin cfg0.N, (cfg0.win 3).flush t = true ∧ i ∈ ((cfg0.win 3).blk t).view.set := by
  have hi0 : (i 0).val < 100000 := idx2_lt0 i
  have hi1 : (i 1).val < 128 := idx2_lt1 i
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, -, -, e6, e7⟩ := block_of_point t
  refine ⟨t, flush0_3 t, ?_⟩
  rw [mem_block]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- THE RESULT ARRAY after the run is `whole`. -/
theorem final (c : Dev nD) : (dats m 0 c).arrAt 3 cfg0.N = whole m c :=
  (dats m 0 c).arrAt_eq_of_cover 3 (whole m c) (fun t _ => flushed_eq m c t) covered

/-- The kernel program's run: every weakly fair execution terminates with the result array at `whole` and the argument
    arrays unchanged. -/
theorem run : θ_run defs (onTc (τ := τ) (main (F := Ideal))) ⟨m, fun _ => 0, ρ⟩ fun r => ∀ c : Dev nD,
      r.2.mem ((c : Thread nD τ).loc main_v12) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.NodeUpdate.Blocks

end
-- ==== Proof.lean ====
/-
  The kernel and its reference compute the same node update of a message-passing layer, entry by entry on the
  extended reals.

  Both programs first build the aggregated features `agg` with the same operations on the same arguments: every edge's
  source index (shifted up by the number of nodes when negative) picks a feature row, and the picked rows are added into
  a zero table at the edges' destination rows. From there the reference takes `agg · wᵀ + b` as one matrix product over
  the whole 100000 × 128 table followed by the bias repeated down the rows. The kernel takes the same product ten blocks
  of 10000 rows at a time, narrowing both factors to bfloat16 on the way into the product — which changes no value on the
  extended reals — and adds the bias row inside each block. Entry (r, c) of both results is

      (∑ k, agg r k · w c k) + b c,

  the same sum over the 128 input features in the same order, so no entry needs to be finite for the two to agree.
  The kernel's idealization rewrites no operation, so there is nothing to preserve beyond the program's own text.
-/
import proofs.«150042_j6648609374330_2_alg».proof.Defs
import proofs.«150042_j6648609374330_2_alg».proof.Proof.Gen.Kernel
import proofs.«150042_j6648609374330_2_alg».proof.Proof.Gen.Kernel.Skeleton
import proofs.«150042_j6648609374330_2_alg».proof.Proof.Gen.Kernel.Launch
import proofs.«150042_j6648609374330_2_alg».proof.Proof.Gen.Kernel.Points
import proofs.«150042_j6648609374330_2_alg».proof.Proof.Gen.Kernel.Frame
import proofs.«150042_j6648609374330_2_alg».proof.Proof.Gen.KernelIdeal
import proofs.«150042_j6648609374330_2_alg».proof.Proof.Gen.KernelIdeal.Skeleton
import proofs.«150042_j6648609374330_2_alg».proof.Proof.Gen.KernelIdeal.Launch
import proofs.«150042_j6648609374330_2_alg».proof.Proof.Gen.KernelIdeal.Points
import proofs.«150042_j6648609374330_2_alg».proof.Proof.Gen.KernelIdeal.Frame
import proofs.«150042_j6648609374330_2_alg».proof.Proof.Gen.ReferenceIdeal
import proofs.«150042_j6648609374330_2_alg».proof.Proof.Gen.KernelIdeal.Value
import proofs.«150042_j6648609374330_2_alg».proof.Proof.Gen.ReferenceIdeal.Run
import proofs.«150042_j6648609374330_2_alg».proof.Proof.Gen.ReferenceIdeal.Read
import proofs.«150042_j6648609374330_2_alg».proof.Proof.Gen.Pre_finite_inputs
import proofs.«150042_j6648609374330_2_alg».proof.Proof.RefIsSpec
import proofs.«150042_j6648609374330_2_alg».proof.Proof.BlocksToArray
import Idealize.ShloMosaic.Adequacy
import Idealize.ShloMosaic.Init

noncomputable section

namespace Cert.Proof

open Idealize.ShloMosaic Idealize.ShloMosaic.TcCoe Idealize.SL.Sem

/-- The kernel's program as printed runs to the end without a fault and leaves its arguments as they were. -/
theorem frame_kernel : Cert.frame_Kernel := fun m ρ _ => Cert.Kernel.Gen.frame m ρ

/-- So does the kernel's program read on the extended reals. -/
theorem frame_kernel_ideal : Cert.frame_KernelIdeal := fun m ρ _ => Cert.KernelIdeal.Gen.frame m ρ

/-- So does the reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The two programs aggregate the neighbour features by the same operations: the two terms are one. -/
theorem same_aggregation (x0 : (⟨Cert.KernelIdeal.S100000x128, .f32⟩ : BufTy).Contents (Elt Ideal))
    (x1 x2 : (⟨Cert.KernelIdeal.S500000, .i32⟩ : BufTy).Contents (Elt Ideal)) :
    Cert.NodeUpdate.Entry.aggregated x0 x1 x2 = Cert.ReferenceIdeal.Read.val_main_v9 (F := Ideal) x0 x1 x2 := rfl

/-- From arguments that agree, the kernel's result array ends at `affine agg w b` (block by block) and the reference's at
    the same function (one product over the whole table): equal, entry by entry. -/
theorem algebraic : Cert.algebraic_KernelIdeal_ReferenceIdeal := by
  intro m ρ m' ρ' _ hagree
  refine ⟨fun c => Cert.NodeUpdate.Blocks.whole m c, Cert.NodeUpdate.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.NodeUpdate.Ref.result_is_affine,
    (hagree c).1, (hagree c).2.1, (hagree c).2.2.1, (hagree c).2.2.2.1, (hagree c).2.2.2.2, ← same_aggregation]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
